-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x8192 : Shape := ⟨2, ![4, 8192]⟩
abbrev S1024x1024 : Shape := ⟨2, ![1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x8192x1024 .f32) (main_arg1 : IVec S4x8192 1) (main_arg2 : FVec F S1024x1024 .f32) (main_arg3 : FVec F S1024x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x8192x1024 : Shape := ⟨3, ![4, 8192, 1024]⟩
abbrev S4x8192 : Shape := ⟨2, ![4, 8192]⟩
abbrev S1024x1024 : Shape := ⟨2, ![1024, 1024]⟩
abbrev S32768x1024 : Shape := ⟨2, ![32768, 1024]⟩
abbrev S32768x1 : Shape := ⟨2, ![32768, 1]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i1⟩
  | .hbm, ⟨2, _⟩ => ⟨S1024x1024, .f32⟩
  | .hbm, ⟨3, _⟩ => ⟨S1024x1024, .f32⟩
  | .hbm, ⟨4, _⟩ => ⟨S32768x1024, .f32⟩
  | .hbm, ⟨5, _⟩ => ⟨S32768x1, .i1⟩
  | .hbm, ⟨6, _⟩ => ⟨S32768x1, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S32768x1024, .f32⟩
  | .hbm, ⟨12, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x8192x1024_S32768x1024 : S4x8192x1024.ShapeCasts S32768x1024
  shapeCasts_S4x8192_S32768x1 : S4x8192.ShapeCasts S32768x1
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  shapeCasts_S32768x1024_S4x8192x1024 : S32768x1024.ShapeCasts S4x8192x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S32768x1.size a
  hwx0_3 : ∀ i : grid0.Coords, EltTy.bits .f32 = 32 ∨ (Rect.block (s := S32768x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S4x8192 : Shape := ⟨2, ![4, 8192]⟩
abbrev S1024x1024 : Shape := ⟨2, ![1024, 1024]⟩
abbrev S4x8192x1 : Shape := ⟨3, ![4, 8192, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i1⟩
  | .hbm, ⟨2, _⟩ => ⟨S1024x1024, .f32⟩
  | .hbm, ⟨3, _⟩ => ⟨S1024x1024, .f32⟩
  | .hbm, ⟨4, _⟩ => ⟨S4x8192x1, .i1⟩
  | .hbm, ⟨5, _⟩ => ⟨S_, .f32⟩
  | .hbm, ⟨6, _⟩ => ⟨S_, .f32⟩
  | .hbm, ⟨7, _⟩ => ⟨S4x8192x1024, .i1⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S_, .f32⟩
  | .hbm, ⟨13, _⟩ => ⟨S4x8192x1024, .i1⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S4x8192x1_S4x8192x1024_0_1_2 : S4x8192x1.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.Routing.lean ====
/-
  The result of the per-token choice between two linear maps, as one function of the argument arrays.

  A token is a row (b, s) of `x : [4, 8192, 1024]`; its one-bit mark `mask (b, s)` says which of the two weight
  matrices `wv`, `wt : [1024, 1024]` (both stored [out, in]) multiplies it. Entry (b, s, o) of the result is

      Σ_k (if mask (b, s) then x (b, s, k) else 0) · wv (o, k)  +  Σ_k (if mask (b, s) then 0 else x (b, s, k)) · wt (o, k).

  One side gates a row by selecting between the entry and zero; the other multiplies the entry by the mark read as
  the number g ∈ {0, 1} and by 1 − g. On the extended reals these agree for every entry, finite or not:
  x · 1 = x, x · 0 = 0, 1 − 1 = 0 and 1 − 0 = 1, so no sum has to be rearranged and no factor moved across a sum.
-/
import Idealize.ShloMosaic.PureOps.Ideal
import Idealize.ShloMosaic.PureOps.Ideal.Laws
import Idealize.ShloMosaic.Lib.ValueIdx

noncomputable section

open scoped BigOperators

namespace Cert.Routing

open Idealize.ShloMosaic Idealize.ShloMosaic.ValueIdx

/-- The routed product, index by index: the row gated by its mark against `wv`, plus the row gated by the
    complement of its mark against `wt`. -/
def routed (x : (⟨3, ![4, 8192, 1024]⟩ : Shape).Idx → EReal) (mask : (⟨2, ![4, 8192]⟩ : Shape).Idx → BitVec 1)
    (wv wt : (⟨2, ![1024, 1024]⟩ : Shape).Idx → EReal) : (⟨3, ![4, 8192, 1024]⟩ : Shape).Idx → EReal := fun i =>
  (∑ k : Fin 1024, Scalar.select (mask (ix2 (i 0) (i 1))) (x (ix3 (i 0) (i 1) k)) 0 * wv (ix2 (i 2) k))
    + (∑ k : Fin 1024, Scalar.select (mask (ix2 (i 0) (i 1))) 0 (x (ix3 (i 0) (i 1) k)) * wt (ix2 (i 2) k))

/-- The bf16 pattern 0x3F80 denotes the number one. -/
theorem one_bf16 : Ideal.ofBits .bf16 0x3F80#16 = 1 := by
  simp [Ideal.ofBits, Ideal.ieee, -EReal.coe_mul]; norm_num

/-- A one-bit mark read as an unsigned number is 0 or 1, and multiplying by it keeps the entry or gives zero. -/
theorem mul_mark (b : BitVec 1) (x : EReal) : x * ((b.toNat : ℝ) : EReal) = Scalar.select b x 0 := by
  rcases BitVec.eq_zero_or_eq_one b with rfl | rfl
  · rw [select_zero]; simp
  · rw [select_one]; simp

/-- Multiplying by one minus the mark keeps the entry exactly where the mark is 0. -/
theorem mul_one_sub_mark (b : BitVec 1) (x : EReal) :
    x * (Ideal.ofBits .bf16 0x3F80#16 - ((b.toNat : ℝ) : EReal)) = Scalar.select b 0 x := by
  rw [one_bf16]
  rcases BitVec.eq_zero_or_eq_one b with rfl | rfl
  · rw [select_zero]; simp
  · rw [select_one]
    have h : (1 : EReal) - (((1#1 : BitVec 1).toNat : ℝ) : EReal) = 0 := by
      show ((1 : ℝ) : EReal) - (((1#1 : BitVec 1).toNat : ℝ) : EReal) = ((0 : ℝ) : EReal)
      rw [← EReal.coe_sub]; norm_num
    rw [h, mul_zero]

/-- The same product over the flat layout the kernel works in: the tokens as the rows of `X : [32768, 1024]`, the marks
    as a column `g : [32768, 1]` of numbers, the weights `A`, `B` laid out [in, out]. Entry (r, o) gates row r by g (r)
    against A and by 1 − g (r) against B. -/
def flat (X : (⟨2, ![32768, 1024]⟩ : Shape).Idx → EReal) (A B : (⟨2, ![1024, 1024]⟩ : Shape).Idx → EReal)
    (g : (⟨2, ![32768, 1]⟩ : Shape).Idx → EReal) : (⟨2, ![32768, 1024]⟩ : Shape).Idx → EReal := fun i =>
  (∑ k : Fin 1024, (X (ix2 (i 0) k) * g (ix2 (i 0) (0 : Fin 1))) * A (ix2 k (i 1)))
    + (∑ k : Fin 1024, (X (ix2 (i 0) k) * (Ideal.ofBits .bf16 0x3F80#16 - g (ix2 (i 0) (0 : Fin 1)))) * B (ix2 k (i 1)))

theorem flat_apply (X : (⟨2, ![32768, 1024]⟩ : Shape).Idx → EReal) (A B : (⟨2, ![1024, 1024]⟩ : Shape).Idx → EReal)
    (g : (⟨2, ![32768, 1]⟩ : Shape).Idx → EReal) (r : Fin 32768) (o : Fin 1024) :
    flat X A B g (ix2 r o)
      = (∑ k : Fin 1024, (X (ix2 r k) * g (ix2 r (0 : Fin 1))) * A (ix2 k o))
        + (∑ k : Fin 1024, (X (ix2 r k) * (Ideal.ofBits .bf16 0x3F80#16 - g (ix2 r (0 : Fin 1)))) * B (ix2 k o)) := rfl

/-- THE LAW that joins the two sides. When row r of the flat layout is token (b, s), its mark read as a number, and
    the flat weights are the transposed ones, entry (r, o) of the flat product is entry (b, s, o) of the routed
    product: term by term under each sum, x · g is the entry selected against zero and x · (1 − g) is zero selected
    against the entry. -/
theorem flat_eq_routed (x : (⟨3, ![4, 8192, 1024]⟩ : Shape).Idx → EReal) (mask : (⟨2, ![4, 8192]⟩ : Shape).Idx → BitVec 1)
    (wv wt : (⟨2, ![1024, 1024]⟩ : Shape).Idx → EReal)
    (X : (⟨2, ![32768, 1024]⟩ : Shape).Idx → EReal) (A B : (⟨2, ![1024, 1024]⟩ : Shape).Idx → EReal)
    (g : (⟨2, ![32768, 1]⟩ : Shape).Idx → EReal) (b : Fin 4) (s : Fin 8192) (o : Fin 1024) (r : Fin 32768)
    (hX : ∀ k : Fin 1024, X (ix2 r k) = x (ix3 b s k))
    (hg : g (ix2 r (0 : Fin 1)) = (((mask (ix2 b s)).toNat : ℝ) : EReal))
    (hA : ∀ k : Fin 1024, A (ix2 k o) = wv (ix2 o k)) (hB : ∀ k : Fin 1024, B (ix2 k o) = wt (ix2 o k)) :
    flat X A B g (ix2 r o) = routed x mask wv wt (ix3 b s o) := by
  rw [flat_apply]
  show _ = (∑ k : Fin 1024, Scalar.select (mask (ix2 b s)) (x (ix3 b s k)) 0 * wv (ix2 o k))
    + (∑ k : Fin 1024, Scalar.select (mask (ix2 b s)) 0 (x (ix3 b s k)) * wt (ix2 o k))
  refine congrArg₂ (· + ·) (Finset.sum_congr rfl fun k _ => ?_) (Finset.sum_congr rfl fun k _ => ?_)
  · rw [hX, hg, hA, mul_mark]
  · rw [hX, hg, hB, mul_one_sub_mark]

end Cert.Routing

end
-- ==== Proof.RefValue.lean ====
/-
  The reference's result, read one operation at a time, is the routed product.

  The reference gates a row by selecting, entry by entry, between the entry and the constant zero under the row's
  mark spread along the row, contracts the gated array with each weight matrix over the input axis, and adds the
  two. Read at an index (b, s, o) that is literally the definition of the routed product; only the composed index
  functions of the generated read-at-an-index lemmas have to be identified with coordinates.
-/
import proofs.«104854_j17377437680121_2_alg».proof.Proof.Gen.ReferenceIdeal.Read
import proofs.«104854_j17377437680121_2_alg».proof.Proof.Routing

noncomputable section

open scoped BigOperators

namespace Cert.ReferenceIdeal.RefValue

open Cert.ReferenceIdeal Cert.ReferenceIdeal.Gen Cert.ReferenceIdeal.Read Idealize.ShloMosaic Idealize.ShloMosaic.ValueIdx

/-- The mark spread along a row is read at the row's coordinates (b, s). -/
theorem mark_idx0 (b : Fin 4) (s : Fin 8192) (k : Fin 1024) : idx_main_v0 (idx_main_call0_v1 (ix3 b s k)) = ix2 b s :=
  funext fun a => Fin.ext (by match a with | ⟨0, _⟩ => rfl | ⟨1, _⟩ => rfl)
theorem mark_idx1 (b : Fin 4) (s : Fin 8192) (k : Fin 1024) : idx_main_v0 (idx_main_call1_v1 (ix3 b s k)) = ix2 b s :=
  funext fun a => Fin.ext (by match a with | ⟨0, _⟩ => rfl | ⟨1, _⟩ => rfl)

/-- The gated array of the first product reads the token's entry where the mark is set and zero elsewhere. -/
theorem gated_apply (x0 : (⟨S4x8192x1024, .f32⟩ : BufTy).Contents (Elt Ideal)) (x1 : (⟨S4x8192, .i1⟩ : BufTy).Contents (Elt Ideal))
    (b : Fin 4) (s : Fin 8192) (k : Fin 1024) :
    val_main_v1 (F := Ideal) x0 x1 (ix3 b s k) = Scalar.select (x1 (ix2 b s)) (x0 (ix3 b s k)) 0 := by
  rw [val_main_v1_apply, val_main_call0_v1_apply, val_main_v0_apply, val_main_call0_v2_apply, val_main_call0_v0_apply,
    val_main_cst_apply, Ideal.ofBits_def, Ideal.ofBits_zero_f32]
  exact congrArg (fun z => Scalar.select (x1 z) (x0 (ix3 b s k)) (0 : EReal)) (mark_idx0 b s k)

/-- The gated array of the second product reads zero where the mark is set and the token's entry elsewhere. -/
theorem cogated_apply (x0 : (⟨S4x8192x1024, .f32⟩ : BufTy).Contents (Elt Ideal)) (x1 : (⟨S4x8192, .i1⟩ : BufTy).Contents (Elt Ideal))
    (b : Fin 4) (s : Fin 8192) (k : Fin 1024) :
    val_main_v3 (F := Ideal) x0 x1 (ix3 b s k) = Scalar.select (x1 (ix2 b s)) 0 (x0 (ix3 b s k)) := by
  rw [val_main_v3_apply, val_main_call1_v1_apply, val_main_v0_apply, val_main_call1_v2_apply, val_main_call1_v0_apply,
    val_main_cst_0_apply, Ideal.ofBits_def, Ideal.ofBits_zero_f32]
  exact congrArg (fun z => Scalar.select (x1 z) (0 : EReal) (x0 (ix3 b s k))) (mark_idx1 b s k)

/-- The contraction reads the gated array along the input axis of token (b, s) and the weight matrix along row o. -/
theorem lidx2 (b : Fin 4) (s : Fin 8192) (o k : Fin 1024) : lidx_main_v2 (ix3 b s o) k = ix3 b s k :=
  funext fun a => Fin.ext (by match a with | ⟨0, _⟩ => rfl | ⟨1, _⟩ => rfl | ⟨2, _⟩ => rfl)
theorem ridx2 (b : Fin 4) (s : Fin 8192) (o k : Fin 1024) : ridx_main_v2 (ix3 b s o) k = ix2 o k :=
  funext fun a => Fin.ext (by match a with | ⟨0, _⟩ => rfl | ⟨1, _⟩ => rfl)
theorem lidx4 (b : Fin 4) (s : Fin 8192) (o k : Fin 1024) : lidx_main_v4 (ix3 b s o) k = ix3 b s k :=
  funext fun a => Fin.ext (by match a with | ⟨0, _⟩ => rfl | ⟨1, _⟩ => rfl | ⟨2, _⟩ => rfl)
theorem ridx4 (b : Fin 4) (s : Fin 8192) (o k : Fin 1024) : ridx_main_v4 (ix3 b s o) k = ix2 o k :=
  funext fun a => Fin.ext (by match a with | ⟨0, _⟩ => rfl | ⟨1, _⟩ => rfl)

/-- The reference's result is the routed product of its arguments. -/
theorem result_eq (x0 : (⟨S4x8192x1024, .f32⟩ : BufTy).Contents (Elt Ideal)) (x1 : (⟨S4x8192, .i1⟩ : BufTy).Contents (Elt Ideal))
    (x2 x3 : (⟨S1024x1024, .f32⟩ : BufTy).Contents (Elt Ideal)) :
    val_main_v5 (F := Ideal) x0 x1 x2 x3 = Cert.Routing.routed x0 x1 x2 x3 := by
  funext i
  obtain ⟨b, s, o, rfl⟩ : ∃ (b : Fin 4) (s : Fin 8192) (o : Fin 1024), i = ix3 b s o := ⟨i 0, i 1, i 2, eq_ix3 i⟩
  rw [val_main_v5_apply, val_main_v2_apply, val_main_v4_apply]
  refine congrArg₂ (· + ·) ?_ ?_
  · refine Finset.sum_congr rfl fun k _ => ?_
    rw [lidx2, ridx2, gated_apply]
  · refine Finset.sum_congr rfl fun k _ => ?_
    rw [lidx4, ridx4, cogated_apply]

end Cert.ReferenceIdeal.RefValue

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.KernelBody.lean ====
/-
  One block of the kernel's result, entry by entry, from the four blocks the body loads.

  The body holds a [1024, 1024] block X of token rows, the two weight blocks A and B laid out [in, out], and the
  column g : [1024, 1] of the rows' marks as numbers. It forms X·g and X·(1 − g) row by row (the column spread
  along each row), multiplies the first by A and the second by B into zero accumulators, and adds. A change of
  float format is the identity on the extended reals and a matrix product into a zero accumulator is the plain sum
  over the contracted index, so entry (p, q) of what it stores is

      Σ_k (X (p, k) · g (p)) · A (k, q)  +  Σ_k (X (p, k) · (1 − g (p))) · B (k, q).
-/
import proofs.«104854_j17377437680121_2_alg».proof.Proof.Gen.KernelIdeal.Skeleton
import proofs.«104854_j17377437680121_2_alg».proof.Proof.LibPlainDot
import proofs.«104854_j17377437680121_2_alg».proof.Proof.LibColumn
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- A row of the token block scaled by its mark, at entry (p, k). -/
theorem gated_apply (x0 : FVec Ideal S1024x1024 .f32) (x3 : FVec Ideal S1024x1 .f32) (p k : Fin 1024) :
    mulf (truncf .bf16 (shapeCast S1024x1024 x0 shapeCasts_S1024x1024_S1024x1024) bitsLt_bf16_f32)
        (broadcastTo S1024x1024 (truncf .bf16 (shapeCast S1024x1 x3 shapeCasts_S1024x1_S1024x1) bitsLt_bf16_f32) broadcasts_S1024x1_S1024x1024)
        (ix2 p k)
      = x0 (ix2 p k) * x3 (ix2 p (0 : Fin 1)) := by
  rw [shapeCast_self, shapeCast_self]
  refine (mulf_apply _ _ _).trans ?_
  refine congrArg (x0 (ix2 p k) * ·) ?_
  exact Cert.GraphConv.broadcastTo_a1_ab_apply (a := 1024) (b := 1024) _ broadcasts_S1024x1_S1024x1024 p k

/-- A row of the token block scaled by one minus its mark, at entry (p, k). -/
theorem cogated_apply (x0 : FVec Ideal S1024x1024 .f32) (x3 : FVec Ideal S1024x1 .f32) (p k : Fin 1024) :
    mulf (truncf .bf16 (shapeCast S1024x1024 x0 shapeCasts_S1024x1024_S1024x1024) bitsLt_bf16_f32)
        (broadcastTo S1024x1024 (subf (broadcast S1024x1 (Scalar.ofBits (F := Ideal) .bf16 0x3F80#16))
          (truncf .bf16 (shapeCast S1024x1 x3 shapeCasts_S1024x1_S1024x1) bitsLt_bf16_f32)) broadcasts_S1024x1_S1024x1024)
        (ix2 p k)
      = x0 (ix2 p k) * (Ideal.ofBits .bf16 0x3F80#16 - x3 (ix2 p (0 : Fin 1))) := by
  rw [shapeCast_self, shapeCast_self]
  refine (mulf_apply _ _ _).trans ?_
  refine congrArg (x0 (ix2 p k) * ·) ?_
  exact Cert.GraphConv.broadcastTo_a1_ab_apply (a := 1024) (b := 1024) _ broadcasts_S1024x1_S1024x1024 p k

/-- What the body stores, at entry (p, q) of the block. -/
theorem stored_apply (x0 : FVec Ideal S1024x1024 .f32) (x1 x2 : FVec Ideal S1024x1024 .bf16) (x3 : FVec Ideal S1024x1 .f32)
    (p q : Fin 1024) :
    k0_pay1 (F := Ideal) x0 x1 x2 x3 (ix2 p q)
      = (∑ k : Fin 1024, (x0 (ix2 p k) * x3 (ix2 p (0 : Fin 1))) * x1 (ix2 k q))
        + (∑ k : Fin 1024, (x0 (ix2 p k) * (Ideal.ofBits .bf16 0x3F80#16 - x3 (ix2 p (0 : Fin 1)))) * x2 (ix2 k q)) := by
  unfold k0_pay1
  refine (addf_apply _ _ _).trans ?_
  refine congrArg₂ (· + ·) ?_ ?_
  · refine (Cert.Lib.PlainDot.matmul_zero_apply _ rfl none _ _ p q).trans ?_
    refine Finset.sum_congr rfl fun k _ => ?_
    rw [gated_apply, shapeCast_self]
  · refine (Cert.Lib.PlainDot.matmul_zero_apply _ rfl none _ _ p q).trans ?_
    refine Finset.sum_congr rfl fun k _ => ?_
    rw [cogated_apply, shapeCast_self]

end Cert.KernelIdeal.Body

end
-- ==== Proof.Blocks.lean ====
/-
  From the blocks the grid points write back to the whole flat result array.

  Point t of the 32-point grid loads rows 1024·t … 1024·t + 1023 of the flat token array and of the column of marks,
  the two whole weight arrays, and writes back rows 1024·t … 1024·t + 1023 of the result. What it writes is those rows
  of ONE function of the arrays the region finds — the flat routed product — and the 32 row blocks tile the result
  array, so after the run the array holds that function.
-/
import proofs.«104854_j17377437680121_2_alg».proof.Proof.Gen.KernelIdeal.Frame
import proofs.«104854_j17377437680121_2_alg».proof.Proof.KernelBody
import proofs.«104854_j17377437680121_2_alg».proof.Proof.Routing
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem offsets_zero : (![0, 0] : Fin 2 → Nat) = fun _ => 0 := funext fun a => by fin_cases a <;> rfl

/-- Where each window's block sits at grid point t: the token, mark and result windows at row block t, the weight
    windows at the one block there is. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The flat routed product of the arrays the region finds. -/
abbrev found (c : Dev nD) : S32768x1024.Idx → EReal :=
  Cert.Routing.flat (V m c main_v0) (V m c main_v4) (V m c main_v6) (V m c main_v2)

/-- Row p of point t's token block is row 1024·t + p of the flat token array. -/
theorem tokens_block (c : Dev nD) (t : Fin cfg0.N) (p k : Fin 1024) (r : Fin 32768) (hr : r.val = t.val * 1024 + p.val) :
    (iblk m c 0 t : S1024x1024.Idx → EReal) (ix2 p k) = (V m c main_v0 : S32768x1024.Idx → EReal) (ix2 r k) := by
  obtain ⟨e0, e1, -⟩ := block_index t
  unfold iblk
  rw [View.read_apply]
  show (V m c main_v0 : S32768x1024.Idx → EReal) (((cfg0.win 0).blk t).view.emb (ix2 p k)) = _
  refine congrArg (V m c main_v0 : S32768x1024.Idx → EReal) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Row p of point t's block of marks is row 1024·t + p of the column of marks. -/
theorem marks_block (c : Dev nD) (t : Fin cfg0.N) (p : Fin 1024) (r : Fin 32768) (hr : r.val = t.val * 1024 + p.val) :
    (iblk m c 3 t : S1024x1.Idx → EReal) (ix2 p (0 : Fin 1)) = (V m c main_v2 : S32768x1.Idx → EReal) (ix2 r (0 : Fin 1)) := by
  obtain ⟨-, -, -, -, -, -, e0, e1, -⟩ := block_index t
  unfold iblk
  rw [View.read_apply]
  show (V m c main_v2 : S32768x1.Idx → EReal) (((cfg0.win 3).blk t).view.emb (ix2 p (0 : Fin 1))) = _
  refine congrArg (V m c main_v2 : S32768x1.Idx → EReal) (funext fun a => Fin.ext ?_)
  match a with
  | ⟨0, _⟩ => show win0_3.index t (0 : Fin 2) * 1024 + 1 * p.val = r.val; omega
  | ⟨1, _⟩ => show win0_3.index t (1 : Fin 2) * 1 + 1 * 0 = 0; omega

/-- Each weight window's one block is its whole array. -/
theorem wv_block (c : Dev nD) (t : Fin cfg0.N) (k q : Fin 1024) :
    (iblk m c 1 t : S1024x1024.Idx → EReal) (ix2 k q) = (V m c main_v4 : S1024x1024.Idx → EReal) (ix2 k q) := by
  obtain ⟨-, -, e0, e1, -⟩ := block_index t
  unfold iblk
  rw [View.read_apply]
  show (V m c main_v4 : S1024x1024.Idx → EReal) (((cfg0.win 1).blk t).view.emb (ix2 k q)) = _
  refine congrArg (V m c main_v4 : S1024x1024.Idx → EReal) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

theorem wt_block (c : Dev nD) (t : Fin cfg0.N) (k q : Fin 1024) :
    (iblk m c 2 t : S1024x1024.Idx → EReal) (ix2 k q) = (V m c main_v6 : S1024x1024.Idx → EReal) (ix2 k q) := by
  obtain ⟨-, -, -, -, e0, e1, -⟩ := block_index t
  unfold iblk
  rw [View.read_apply]
  show (V m c main_v6 : S1024x1024.Idx → EReal) (((cfg0.win 2).blk t).view.emb (ix2 k q)) = _
  refine congrArg (V m c main_v6 : S1024x1024.Idx → EReal) (funext fun a => Fin.ext ?_)
  match a with
  | ⟨0, _⟩ => show win0_2.index t (0 : Fin 2) * 1024 + 1 * k.val = k.val; omega
  | ⟨1, _⟩ => show win0_2.index t (1 : Fin 2) * 1024 + 1 * q.val = q.val; omega

/-- What point t stores at entry y of its block is the flat routed product at row 1024·t + y₀, column y₁. -/
theorem stored_eq (c : Dev nD) (t : Fin cfg0.N) (y : S1024x1024.Idx) (i : S32768x1024.Idx)
    (h0 : (i 0).val = t.val * 1024 + (y 0).val) (h1 : (i 1).val = (y 1).val) :
    k0_pay1 (F := Ideal) (iblk m c 0 t) (iblk m c 1 t) (iblk m c 2 t) (iblk m c 3 t) y = found m c i := by
  obtain ⟨p, q, rfl⟩ : ∃ (p q : Fin 1024), y = ix2 p q := ⟨y 0, y 1, eq_ix2 y⟩
  obtain ⟨r, o, rfl⟩ : ∃ (r : Fin 32768) (o : Fin 1024), i = ix2 r o := ⟨i 0, i 1, eq_ix2 i⟩
  have hr : r.val = t.val * 1024 + p.val := h0
  obtain rfl : o = q := Fin.ext h1
  refine (Cert.KernelIdeal.Body.stored_apply (iblk m c 0 t) (iblk m c 1 t) (iblk m c 2 t) (iblk m c 3 t) p o).trans ?_
  refine Eq.trans ?_ (Cert.Routing.flat_apply (V m c main_v0) (V m c main_v4) (V m c main_v6) (V m c main_v2) r o).symm
  refine congrArg₂ (· + ·) (Finset.sum_congr rfl fun k _ => ?_) (Finset.sum_congr rfl fun k _ => ?_)
  · rw [tokens_block m c t p k r hr, marks_block m c t p r hr, wv_block m c t k o]
  · rw [tokens_block m c t p k r hr, marks_block m c t p r hr, wt_block m c t k o]

/-- WHAT POINT t WRITES BACK is block t of the flat routed product. -/
theorem flushed_eq (c : Dev nD) (t : Fin cfg0.N) :
    (dats m 0 c).flushed 4 t = ((cfg0.win 4).blk t).view.read (Elt Ideal) (found m c) := by
  show (cfg0.win 4).cut (grid0.coords t) ((dats m 0 c).after 4 t) = _
  rw [after0_4]
  unfold out0_4
  rw [View.canon_unit_zero offsets_zero]
  simp only [View.ld_unit_zero (S := S1024x1024) offsets_zero, View.ld_unit_zero (S := S1024x1) offsets_zero]
  obtain ⟨-, -, -, -, -, -, -, -, e0, e1⟩ := block_index t
  funext j
  refine stored_eq m c t j (((cfg0.win 4).blk t).view.emb j) ?_ ?_
  · show win0_4.index t (0 : Fin 2) * 1024 + 1 * (j 0).val = t.val * 1024 + (j 0).val; omega
  · show win0_4.index t (1 : Fin 2) * 1024 + 1 * (j 1).val = (j 1).val; omega

/-- An index of the result array is in point t's block iff each coordinate is in the block's range on its axis. -/
theorem mem_blk (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- The row blocks tile the result array: row r is in the block of point r / 1024. -/
theorem covered (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 32 := N_0
  have ht : (i 0).val / 1024 < cfg0.N := by rw [hN]; omega
  obtain ⟨-, -, -, -, -, -, -, -, e0, e1⟩ := block_index ⟨(i 0).val / 1024, ht⟩
  refine ⟨⟨(i 0).val / 1024, ht⟩, flush0_4 _, ?_⟩
  rw [mem_blk]
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    rw [e1]
    omega

/-- THE RESULT ARRAY after the run is the flat routed product of the arrays the region finds. -/
theorem final (c : Dev nD) : (dats m 0 c).arrAt 4 cfg0.N = found m c :=
  (dats m 0 c).arrAt_eq_of_cover 4 (found m c) (fun t _ => flushed_eq m c t) covered

end Cert.KernelIdeal.Blocks

end
-- ==== Proof.LibReshape.lean ====
/-
  General lemmas about re-laid arrays read at an index, for any element type: a matrix with `a·b` rows viewed as an
  `[a, b, c]` array and back (row `i·b + j` is entry `(i, j)`), a matrix given a unit middle axis, and an array
  with a unit axis repeated along that axis.
-/
import Idealize.ShloMosaic.Lib.Pipeline.Value
import Idealize.ShloMosaic.Lib.ValueIdx

namespace Cert.LibReshape

open Idealize.ShloMosaic Idealize.ShloMosaic.ValueIdx

variable {α : Type}

/-- An `[M, c]` array viewed as `[a, b, c]` reads, at `(i, j, k)`, the operand's row `i·b + j` at column `k`. -/
theorem shapeCast_Mc_abc_apply {a b c M : ℕ} (x : (⟨2, ![M, c]⟩ : Shape).Idx → α)
    (h : (⟨2, ![M, c]⟩ : Shape).ShapeCasts ⟨3, ![a, b, c]⟩) (i : Fin a) (j : Fin b) (k : Fin c) (p : Fin M)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- An `[a, b, c]` array viewed as `[M, c]` reads, at row `i·b + j` and column `k`, the operand at `(i, j, k)`. -/
theorem shapeCast_abc_Mc_apply {a b c M : ℕ} (x : (⟨3, ![a, b, c]⟩ : Shape).Idx → α)
    (h : (⟨3, ![a, b, c]⟩ : Shape).ShapeCasts ⟨2, ![M, c]⟩) (i : Fin a) (j : Fin b) (k : Fin c) (p : Fin M)
    (hp : p.val = i.val * b + j.val) :
    shapeCast ⟨2, ![M, c]⟩ x h (ix2 p k) = x (ix3 i j k) :=
  shapeCast_apply x h _ _ (by
    rw [Shape.rowMajor_val_two, Shape.rowMajor_val_three]
    show (i.val * b + j.val) * c + k.val = p.val * c + k.val
    rw [hp])

/-- An `[a, c]` array given a unit middle axis reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array repeated along its middle axis reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array repeated along its leading axis reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibReshape
-- ==== Proof.Entry.lean ====
/-
  What the kernel's region finds in the four arrays it reads, in terms of the program's arguments.

  Before the region the host lays the tokens x : [4, 8192, 1024] out flat as [32768, 1024] (token (b, s) is row
  b·8192 + s), lays the marks [4, 8192] out as a column [32768, 1] and reads each one-bit mark as the number 0 or 1,
  and transposes each weight matrix [out, in] to [in, out] (the change of float format that follows is the identity
  on the extended reals).
-/
import proofs.«104854_j17377437680121_2_alg».proof.Proof.Gen.KernelIdeal.Frame
import proofs.«104854_j17377437680121_2_alg».proof.Proof.LibReshape
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The flat token array is the token argument re-laid. -/
theorem tokens_eq (c : Dev nD) :
    (V m c main_v0 : S32768x1024.Idx → EReal)
      = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results <;> rfl

/-- Row b·8192 + s of the flat token array is token (b, s). -/
theorem tokens_apply (c : Dev nD) (b : Fin 4) (s : Fin 8192) (k : Fin 1024) (r : Fin 32768) (hr : r.val = b.val * 8192 + s.val) :
    (V m c main_v0 : S32768x1024.Idx → EReal) (ix2 r k)
      = (m ((c : Thread nD τ).loc main_arg0) : S4x8192x1024.Idx → EReal) (ix3 b s k) := by
  rw [tokens_eq]
  exact Cert.LibReshape.shapeCast_abc_Mc_apply _ shapeCasts_S4x8192x1024_S32768x1024 b s k r hr

/-- The column of marks is the mark argument re-laid and read as unsigned numbers. -/
theorem marks_eq (c : Dev nD) :
    (V m c main_v2 : S32768x1.Idx → EReal)
      = uitofp (F := Ideal) .f32 (shapeCast S32768x1 (m ((c : Thread nD τ).loc main_arg1) : S4x8192.Idx → BitVec 1) shapeCasts_S4x8192_S32768x1) := by
  show StableHlo.after hostOps0 (fun b => m (c, b)) (Proc.devRef .tc main_v2) = _
  after_results <;> rfl

/-- Row b·8192 + s of the column of marks is the mark of token (b, s) as the number 0 or 1. -/
theorem marks_apply (c : Dev nD) (b : Fin 4) (s : Fin 8192) (r : Fin 32768) (hr : r.val = b.val * 8192 + s.val) :
    (V m c main_v2 : S32768x1.Idx → EReal) (ix2 r (0 : Fin 1))
      = ((((m ((c : Thread nD τ).loc main_arg1) : S4x8192.Idx → BitVec 1) (ix2 b s)).toNat : ℝ) : EReal) := by
  rw [marks_eq]
  show (((shapeCast S32768x1 (m ((c : Thread nD τ).loc main_arg1) : S4x8192.Idx → BitVec 1) shapeCasts_S4x8192_S32768x1 (ix2 r (0 : Fin 1))).toNat : ℝ) : EReal) = _
  rw [shapeCast_apply _ shapeCasts_S4x8192_S32768x1 (ix2 r (0 : Fin 1)) (ix2 b s) (by
    rw [Shape.rowMajor_val_two, Shape.rowMajor_val_two]
    show b.val * 8192 + s.val = r.val * 1 + 0
    omega)]

/-- The first weight block, laid out [in, out], is the transposed weight argument. -/
theorem wv_eq (c : Dev nD) :
    (V m c main_v4 : S1024x1024.Idx → EReal)
      = (truncf (F := Ideal) .bf16 (transpose S1024x1024 [1, 0] (m ((c : Thread nD τ).loc main_arg2) : S1024x1024.Idx → EReal) transposes_S1024x1024_S1024x1024_1_0 : FVec Ideal S1024x1024 .f32) bitsLt_bf16_f32 : S1024x1024.Idx → EReal) := by
  show StableHlo.after hostOps0 (fun b => m (c, b)) (Proc.devRef .tc main_v4) = _
  after_results <;> rfl

theorem wv_apply (c : Dev nD) (k o : Fin 1024) :
    (V m c main_v4 : S1024x1024.Idx → EReal) (ix2 k o) = (m ((c : Thread nD τ).loc main_arg2) : S1024x1024.Idx → EReal) (ix2 o k) := by
  rw [wv_eq]
  show transpose S1024x1024 [1, 0] (m ((c : Thread nD τ).loc main_arg2) : S1024x1024.Idx → EReal) transposes_S1024x1024_S1024x1024_1_0 (ix2 k o) = _
  exact transpose_apply [1, 0] _ transposes_S1024x1024_S1024x1024_1_0 (ix2 k o) (ix2 o k) (fun a => match a with
    | ⟨0, _⟩ => rfl
    | ⟨1, _⟩ => rfl)

/-- The second weight block likewise. -/
theorem wt_eq (c : Dev nD) :
    (V m c main_v6 : S1024x1024.Idx → EReal)
      = (truncf (F := Ideal) .bf16 (transpose S1024x1024 [1, 0] (m ((c : Thread nD τ).loc main_arg3) : S1024x1024.Idx → EReal) transposes_S1024x1024_S1024x1024_1_0 : FVec Ideal S1024x1024 .f32) bitsLt_bf16_f32 : S1024x1024.Idx → EReal) := by
  show StableHlo.after hostOps0 (fun b => m (c, b)) (Proc.devRef .tc main_v6) = _
  after_results <;> rfl

theorem wt_apply (c : Dev nD) (k o : Fin 1024) :
    (V m c main_v6 : S1024x1024.Idx → EReal) (ix2 k o) = (m ((c : Thread nD τ).loc main_arg3) : S1024x1024.Idx → EReal) (ix2 o k) := by
  rw [wt_eq]
  show transpose S1024x1024 [1, 0] (m ((c : Thread nD τ).loc main_arg3) : S1024x1024.Idx → EReal) transposes_S1024x1024_S1024x1024_1_0 (ix2 k o) = _
  exact transpose_apply [1, 0] _ transposes_S1024x1024_S1024x1024_1_0 (ix2 k o) (ix2 o k) (fun a => match a with
    | ⟨0, _⟩ => rfl
    | ⟨1, _⟩ => rfl)

end Cert.KernelIdeal.Entry

end
-- ==== Proof.Result.lean ====
/-
  The kernel program's whole run, read: its result is the routed product of its arguments.

  After the region the host re-lays the flat result [32768, 1024] as [4, 8192, 1024]: entry (b, s, o) is row
  b·8192 + s, column o, of the flat routed product of the arrays the region finds. Those arrays are the arguments
  re-laid (token (b, s) at row b·8192 + s, its mark as a number, each weight matrix transposed), so the entry is the
  routed product of the arguments at (b, s, o).
-/
import proofs.«104854_j17377437680121_2_alg».proof.Proof.Blocks
import proofs.«104854_j17377437680121_2_alg».proof.Proof.Entry
import proofs.«104854_j17377437680121_2_alg».proof.Proof.LibReshape
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The routed product of the program's arguments as launched. -/
abbrev expected (c : Dev nD) : S4x8192x1024.Idx → EReal :=
  Cert.Routing.routed (m ((c : Thread nD τ).loc main_arg0)) (m ((c : Thread nD τ).loc main_arg1))
    (m ((c : Thread nD τ).loc main_arg2)) (m ((c : Thread nD τ).loc main_arg3))

/-- The program's result buffer after the host line that follows the region: the flat result re-laid. -/
theorem tail_eq (c : Dev nD) :
    (Pipeline.afterTail₀ cfgs (dats m) 0 (V0 m) [hostOps1] c main_v8 : S4x8192x1024.Idx → EReal)
      = shapeCast S4x8192x1024 (Blocks.found m c) shapeCasts_S32768x1024_S4x8192x1024 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7)
      = Blocks.found m c :=
    (Pipeline.withArrays_arr spec0 launch0.win.arr_inj c _ _ 4).trans (Blocks.final m c)
  rw [e]
  rfl

/-- The program's result is the routed product of its arguments. -/
theorem result_eq (c : Dev nD) :
    (Pipeline.afterTail₀ cfgs (dats m) 0 (V0 m) [hostOps1] c main_v8 : S4x8192x1024.Idx → EReal) = expected m c := by
  rw [tail_eq]
  funext i
  obtain ⟨b, s, o, rfl⟩ : ∃ (b : Fin 4) (s : Fin 8192) (o : Fin 1024), i = ix3 b s o := ⟨i 0, i 1, i 2, eq_ix3 i⟩
  have hlt : b.val * 8192 + s.val < 32768 := by have := b.isLt; have := s.isLt; omega
  refine (Cert.LibReshape.shapeCast_Mc_abc_apply (Blocks.found m c) shapeCasts_S32768x1024_S4x8192x1024 b s o
    ⟨b.val * 8192 + s.val, hlt⟩ rfl).trans ?_
  exact Cert.Routing.flat_eq_routed _ _ _ _ _ _ _ _ b s o ⟨b.val * 8192 + s.val, hlt⟩
    (fun k => Entry.tokens_apply m c b s k _ rfl) (Entry.marks_apply m c b s _ rfl)
    (fun k => Entry.wv_apply m c k o) (fun k => Entry.wt_apply m c k o)

/-- THE RUN, READ: every weakly fair execution terminates with the result buffer at the routed product of the
    arguments and the arguments unchanged. -/
theorem run : θ_run defs (onTc (τ := τ) (main (F := Ideal))) ⟨m, fun _ => 0, ρ⟩ fun r => ∀ c : Dev nD,
      r.2.mem ((c.tc : Thread nD τ).loc main_v8) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  Per-token choice between two linear maps: a kernel that multiplies each token row by its mark g ∈ {0, 1} and by
  1 − g and sends the two gated rows through the two weight matrices, against a reference that gates the rows by
  selecting between the entry and zero.

  Both programs end with the routed product of the arguments (Proof/Routing.lean): for token (b, s) and output o,

      Σ_k (if mask (b, s) then x (b, s, k) else 0) · wv (o, k)  +  Σ_k (if mask (b, s) then 0 else x (b, s, k)) · wt (o, k).

  The reference is this term read one operation at a time (Proof/RefValue.lean). The kernel works on the flat layout:
  Proof/KernelBody.lean reads what one grid point stores, Proof/Entry.lean what the region finds in its arrays,
  Proof/Blocks.lean assembles the 32 row blocks into the flat result, and Proof/Result.lean re-lays it and joins it to
  the routed product by the one law x · 1 = x, x · 0 = 0, 1 − 1 = 0, 1 − 0 = 1 on the extended reals. No step moves a
  factor across a sum, so the inputs' finiteness is never used. The idealization rewrote nothing, so that conjunct
  is trivial; the three frames are the generated ones.
-/
import proofs.«104854_j17377437680121_2_alg».proof.Defs
import proofs.«104854_j17377437680121_2_alg».proof.Proof.Gen.Kernel
import proofs.«104854_j17377437680121_2_alg».proof.Proof.Gen.Kernel.Skeleton
import proofs.«104854_j17377437680121_2_alg».proof.Proof.Gen.Kernel.Launch
import proofs.«104854_j17377437680121_2_alg».proof.Proof.Gen.Kernel.Points
import proofs.«104854_j17377437680121_2_alg».proof.Proof.Gen.Kernel.Frame
import proofs.«104854_j17377437680121_2_alg».proof.Proof.Gen.KernelIdeal
import proofs.«104854_j17377437680121_2_alg».proof.Proof.Gen.KernelIdeal.Skeleton
import proofs.«104854_j17377437680121_2_alg».proof.Proof.Gen.KernelIdeal.Launch
import proofs.«104854_j17377437680121_2_alg».proof.Proof.Gen.KernelIdeal.Points
import proofs.«104854_j17377437680121_2_alg».proof.Proof.Gen.KernelIdeal.Frame
import proofs.«104854_j17377437680121_2_alg».proof.Proof.Gen.ReferenceIdeal
import proofs.«104854_j17377437680121_2_alg».proof.Proof.Gen.Pre_finite_inputs
import proofs.«104854_j17377437680121_2_alg».proof.Proof.Gen.ReferenceIdeal.Run
import proofs.«104854_j17377437680121_2_alg».proof.Proof.Gen.ReferenceIdeal.Read
import proofs.«104854_j17377437680121_2_alg».proof.Proof.RefValue
import proofs.«104854_j17377437680121_2_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- Both programs end with the routed product of arguments that agree. -/
theorem algebraic : Cert.algebraic_KernelIdeal_ReferenceIdeal := by
  intro m ρ m' ρ' _ hagree
  refine ⟨fun c => Cert.KernelIdeal.Result.expected m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
